-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x2048 : Shape := ⟨3, ![8, 128, 2048]⟩
abbrev S8x2048x2048 : Shape := ⟨3, ![8, 2048, 2048]⟩
abbrev S_ : Shape := ⟨0, ![]⟩

class Facts : Prop where
  bcast_S_S8x128x2048 : S_.BroadcastsInDim S8x128x2048 (![] : Fin 0 → Fin S8x128x2048.rank)
  reducesTo_S8x128x2048_S_d0_1_2 : S8x128x2048.ReducesTo [0, 1, 2] S_
  h_S_ : 0 < S_.numel

variable [Facts]

def fn {F : FTy → Type} [FloatOps F] (main_arg0 : FVec F S8x128x2048 .f32) (main_arg1 : FVec F S8x128x2048 .f32) (main_arg2 : FVec F S8x128x2048 .f32) (main_arg3 : IVec S8x2048x2048 32) : IVec S_ 1 :=
  let main_v0 : FVec F S8x128x2048 .f32 := Host.absf main_arg0
  let main_cst : FVec F S_ .f32 := constant S_ .f32 0x7F800000#32
  let main_v1 : FVec F S8x128x2048 .f32 := broadcastInDim S8x128x2048 ![] bcast_S_S8x128x2048 main_cst
  let main_v2 : IVec S8x128x2048 1 := cmpf .olt main_v0 main_v1
  let main_c : IVec S_ 1 := constantI S_ 1 1#1
  let main_v3 : IVec S_ 1 := (fun x v => Host.reduce IntOp.andi x v reducesTo_S8x128x2048_S_d0_1_2 h_S_) main_v2 main_c
  let main_v4 : FVec F S8x128x2048 .f32 := Host.absf main_arg1
  let main_cst_0 : FVec F S_ .f32 := constant S_ .f32 0x7F800000#32
  let main_v5 : FVec F S8x128x2048 .f32 := broadcastInDim S8x128x2048 ![] bcast_S_S8x128x2048 main_cst_0
  let main_v6 : IVec S8x128x2048 1 := cmpf .olt main_v4 main_v5
  let main_c_1 : IVec S_ 1 := constantI S_ 1 1#1
  let main_v7 : IVec S_ 1 := (fun x v => Host.reduce IntOp.andi x v reducesTo_S8x128x2048_S_d0_1_2 h_S_) main_v6 main_c_1
  let main_v8 : IVec S_ 1 := andi main_v3 main_v7
  let main_v9 : FVec F S8x128x2048 .f32 := Host.absf main_arg2
  let main_cst_2 : FVec F S_ .f32 := constant S_ .f32 0x7F800000#32
  let main_v10 : FVec F S8x128x2048 .f32 := broadcastInDim S8x128x2048 ![] bcast_S_S8x128x2048 main_cst_2
  let main_v11 : IVec S8x128x2048 1 := cmpf .olt main_v9 main_v10
  let main_c_3 : IVec S_ 1 := constantI S_ 1 1#1
  let main_v12 : IVec S_ 1 := (fun x v => Host.reduce IntOp.andi x v reducesTo_S8x128x2048_S_d0_1_2 h_S_) main_v11 main_c_3
  let main_v13 : IVec S_ 1 := andi main_v8 main_v12
  main_v13
-- ==== Kernel.lean ====
abbrev S8x128x2048 : Shape := ⟨3, ![8, 128, 2048]⟩
abbrev S8x2048x2048 : Shape := ⟨3, ![8, 2048, 2048]⟩
abbrev S1x128x512 : Shape := ⟨3, ![1, 128, 512]⟩
abbrev S1x128x2048 : Shape := ⟨3, ![1, 128, 2048]⟩
abbrev S1x512x2048 : Shape := ⟨3, ![1, 512, 2048]⟩
abbrev S128x512 : Shape := ⟨2, ![128, 512]⟩
abbrev S128x2048 : Shape := ⟨2, ![128, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x128x2048, .f32⟩
  | .hbm, ⟨1, _⟩ => ⟨S8x128x2048, .f32⟩
  | .hbm, ⟨2, _⟩ => ⟨S8x128x2048, .f32⟩
  | .hbm, ⟨3, _⟩ => ⟨S8x2048x2048, .i32⟩
  | .hbm, ⟨4, _⟩ => ⟨S8x128x2048, .f32⟩
  | .hbm, ⟨5, _⟩ => ⟨S8x2048x2048, .f32⟩
  | .local _ .vmem, ⟨0, _⟩ => ⟨S1x128x512, .f32⟩
  | .local _ .vmem, ⟨1, _⟩ => ⟨S1x128x512, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x512x2048, .i32⟩
  | .local _ .vmem, ⟨7, _⟩ => ⟨S1x512x2048, .i32⟩
  | .local _ .vmem, ⟨8, _⟩ => ⟨S1x128x512, .f32⟩
  | .local _ .vmem, ⟨9, _⟩ => ⟨S1x128x512, .f32⟩
  | .local _ .vmem, ⟨10, _⟩ => ⟨S1x512x2048, .f32⟩
  | .local _ .vmem, ⟨11, _⟩ => ⟨S1x512x2048, .f32⟩
  | _, _ => ⟨S8x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S128x512_S1x128x512 : S128x512.ShapeCasts S1x128x512
  dot_S128x512_S128x2048_S512x2048_0_0_1_1_n_n_wf : DotDims.WF S128x512 S128x2048 S512x2048 [0] [0] [1] [1] [] []
  dot_S128x2048_S512x2048_S128x512_1_1_0_0_n_n_wf : DotDims.WF S128x2048 S512x2048 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x128x2048.size a
  hwx0_0 : ∀ i : grid0.Coords, EltTy.bits .f32 = 32 ∨ (Rect.block (s := S8x128x2048) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S8x128x2048.size a
  hwx0_1 : ∀ i : grid0.Coords, EltTy.bits .f32 = 32 ∨ (Rect.block (s := S8x128x2048) S1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S8x128x2048.size a
  hwx0_2 : ∀ i : grid0.Coords, EltTy.bits .f32 = 32 ∨ (Rect.block (s := S8x128x2048) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .i32 = 32 ∨ (Rect.block (s := S8x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x512.size a ≤ S8x128x2048.size a
  hwx0_4 : ∀ i : grid0.Coords, EltTy.bits .f32 = 32 ∨ (Rect.block (s := S8x128x2048) S1x128x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x2048x2048.size a
  hwx0_5 : ∀ i : grid0.Coords, EltTy.bits .f32 = 32 ∨ (Rect.block (s := S8x2048x2048) S1x512x2048.size (cc0_transform_5 i) (hinb0_5 i)).WholeWords (EltTy.packing .f32)

variable [Facts₀]

def dot_S128x512_S128x2048_S512x2048_0_0_1_1_n_n : DotDims S128x512 S128x2048 S512x2048 where
  lhsContracting := [0]
  rhsContracting := [0]
  lhsNonContracting := [1]
  rhsNonContracting := [1]
  lhsBatch := []
  rhsBatch := []
  wf := dot_S128x512_S128x2048_S512x2048_0_0_1_1_n_n_wf
def dot_S128x2048_S512x2048_S128x512_1_1_0_0_n_n : DotDims S128x2048 S512x2048 S128x512 where
  lhsContracting := [1]
  rhsContracting := [1]
  lhsNonContracting := [0]
  rhsNonContracting := [0]
  lhsBatch := []
  rhsBatch := []
  wf := dot_S128x2048_S512x2048_S128x512_1_1_0_0_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x128x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x128x2048 : Shape := ⟨3, ![8, 128, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S8x128x2048, .f32⟩
  | .hbm, ⟨1, _⟩ => ⟨S8x128x2048, .f32⟩
  | .hbm, ⟨2, _⟩ => ⟨S8x128x2048, .f32⟩
  | .hbm, ⟨3, _⟩ => ⟨S8x2048x2048, .i32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S_, .f32⟩
  | .hbm, ⟨17, _⟩ => ⟨S8x2048, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x128x2048, .f32⟩
  | _, _ => ⟨S8x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x128x2048_S8x128x2048_S8x2048x2048_1_1_2_2_0_0_wf : DotDims.WF S8x128x2048 S8x128x2048 S8x2048x2048 [1] [1] [2] [2] [0] [0]
  dot_S8x128x2048_S8x2048x2048_S8x128x2048_2_2_1_1_0_0_wf : DotDims.WF S8x128x2048 S8x2048x2048 S8x128x2048 [2] [2] [1] [1] [0] [0]

variable [Facts₀]

def dot_S8x128x2048_S8x128x2048_S8x2048x2048_1_1_2_2_0_0 : DotDims S8x128x2048 S8x128x2048 S8x2048x2048 where
  lhsContracting := [1]
  rhsContracting := [1]
  lhsNonContracting := [2]
  rhsNonContracting := [2]
  lhsBatch := [0]
  rhsBatch := [0]
  wf := dot_S8x128x2048_S8x128x2048_S8x2048x2048_1_1_2_2_0_0_wf
def dot_S8x128x2048_S8x2048x2048_S8x128x2048_2_2_1_1_0_0 : DotDims S8x128x2048 S8x2048x2048 S8x128x2048 where
  lhsContracting := [2]
  rhsContracting := [2]
  lhsNonContracting := [1]
  rhsNonContracting := [1]
  lhsBatch := [0]
  rhsBatch := [0]
  wf := dot_S8x128x2048_S8x2048x2048_S8x128x2048_2_2_1_1_0_0_wf

class Facts : Prop extends Facts₀ where

variable [Facts]
-- ==== Proof.AttnSpec.lean ====
/-
  Masked softmax attention on the extended reals, one query row at a time.

  A query row is given by its 128 channel values `qf c`, the keys `kf c k` and the row's mask words
  `mf k` (2048 key positions). With `s`, `ε` and `−∞` the three float words both programs spell,
    logit k  = (∑ c, qf c · kf c k) · s + log (mask k + ε)
    rowMax   = max (−∞) (the maximum of the logits, folded from −∞)
    weight k = exp (logit k − rowMax) / (∑ k', exp (logit k' − rowMax)) · mask k
  and an entry of the attended values is ∑ k, vf k · weight k. The float words are kept as words: the
  same word stands on both sides and is never evaluated. The whole-array functions below read a row's
  data off the argument arrays [8, 128, 2048] (queries, keys, values: batch, channel, position) and
  [8, 2048, 2048] (mask: batch, query, key).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The scale `f32(1/√128)` as the word both programs multiply by. -/
abbrev scaleWord : EReal := Ideal.ofBits .f32 0x3DB504F3#32
/-- The shift `f32(1e-9)` added to the mask before the logarithm. -/
abbrev shiftWord : EReal := Ideal.ofBits .f32 0x3089705F#32
/-- The word of `−∞`, from which both maxima start. -/
abbrev negInfWord : EReal := Ideal.ofBits .f32 0xFF800000#32

/-- A mask word read as a signed integer, exactly. -/
abbrev maskVal (w : BitVec 32) : EReal := ((w.toInt : ℝ) : EReal)

/-- The logit of key `k`: the scaled inner product over the channels plus the logarithm of the shifted mask. -/
def logit (qf : Fin 128 → EReal) (kf : Fin 128 → Fin 2048 → EReal) (mf : Fin 2048 → BitVec 32) (k : Fin 2048) : EReal :=
  (∑ c : Fin 128, qf c * kf c k) * scaleWord + Ideal.log (maskVal (mf k) + shiftWord)

/-- The row maximum as both programs take it: the fold of `max` from `−∞`, once more against `−∞`. -/
def rowMax (z : Fin 2048 → EReal) : EReal :=
  max negInfWord ((Finset.univ : Finset (Fin 2048)).fold max negInfWord z)

/-- The exponential of a logit shifted by the row maximum. -/
def expShift (z : Fin 2048 → EReal) (k : Fin 2048) : EReal := Ideal.exp (z k - rowMax z)

/-- The attention weight of key `k` in the row: the normalized exponential, times the mask. -/
def weight (qf : Fin 128 → EReal) (kf : Fin 128 → Fin 2048 → EReal) (mf : Fin 2048 → BitVec 32) (k : Fin 2048) : EReal :=
  Ideal.div (expShift (logit qf kf mf) k) (∑ k' : Fin 2048, expShift (logit qf kf mf) k') * maskVal (mf k)

/-- One entry of the attended values: the values `vf` summed against the row's weights. -/
def attended (vf : Fin 2048 → EReal) (qf : Fin 128 → EReal) (kf : Fin 128 → Fin 2048 → EReal) (mf : Fin 2048 → BitVec 32) : EReal :=
  ∑ k : Fin 2048, vf k * weight qf kf mf k

/-- The shape of the query, key and value arrays: batch, channel, position. -/
abbrev SQ : Shape := ⟨3, ![8, 128, 2048]⟩
/-- The shape of the mask and of the attention weights: batch, query, key. -/
abbrev SM : Shape := ⟨3, ![8, 2048, 2048]⟩

/-- The attention weights as one function of the argument arrays: entry (b, q, k) is the weight of key `k` in
    the row of query `q` of batch `b`. -/
def weights (Q K : SQ.Idx → EReal) (M : SM.Idx → BitVec 32) : SM.Idx → EReal := fun i =>
  weight (fun c => Q (ix3 (i 0 : Fin 8) c (i 1 : Fin 2048))) (fun c k => K (ix3 (i 0 : Fin 8) c k))
    (fun k => M (ix3 (i 0 : Fin 8) (i 1 : Fin 2048) k)) (i 2 : Fin 2048)

/-- The attended values as one function of the argument arrays: entry (b, c, q) sums channel `c` of the values
    against the weights of the row of query `q` of batch `b`. -/
def values (Q K V : SQ.Idx → EReal) (M : SM.Idx → BitVec 32) : SQ.Idx → EReal := fun i =>
  attended (fun k => V (ix3 (i 0 : Fin 8) (i 1 : Fin 128) k)) (fun c => Q (ix3 (i 0 : Fin 8) c (i 2 : Fin 2048)))
    (fun c k => K (ix3 (i 0 : Fin 8) c k)) (fun k => M (ix3 (i 0 : Fin 8) (i 2 : Fin 2048) k))

end Cert.Attn

end
-- ==== Proof.BlockSoftmax.lean ====
/-
  The softmax of a block of logits, read row by row.

  At a grid point the body holds a [512, 2048] block of logits: 512 query rows, each over all 2048 keys. It takes
  each row's maximum (a reduction along the keys from `−∞`, once more against `−∞`), exponentiates the logits
  shifted by their row's maximum, sums each row, divides, and multiplies by the mask block. A reduction along
  the keys read at row `r` is the fold, or the sum, over that row's 2048 entries, and a vector of row values laid
  out as a column and repeated along the keys holds row `r`'s value at every (r, k). So entry (r, k) of the
  result is the specification's normalized exponential of row `r` at key `k`, times the mask value there.
-/
import proofs.«127525_j88880053224156_1_alg».proof.Proof.Gen.KernelIdeal.Skeleton
import proofs.«127525_j88880053224156_1_alg».proof.Proof.AttnSpec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Attn

/-! ## Rows of a [512, 2048] block -/

/-- A vector of 512 row values laid out as a column and repeated along the 2048 keys holds, at (r, k), row `r`'s value. -/
theorem column_apply {α : Type} (w : S512.Idx → α) (r : Fin 512) (k : Fin 2048) :
    broadcastTo S512x2048 (shapeCast S512x1 w shapeCasts_S512_S512x1) broadcasts_S512x1_S512x2048 (ix2 r k) = w (ix1 r) := by
  refine (broadcastTo_apply _ _ (ix2 r k) (ix2 r (0 : Fin 1)) ?_).trans ?_
  · intro a
    match a with
    | ⟨0, _⟩ => show r.val = if (512 : Nat) = 1 then 0 else r.val; rw [if_neg (by decide)]
    | ⟨1, _⟩ => show 0 = if (1 : Nat) = 1 then 0 else k.val; rw [if_pos rfl]
  · exact shapeCast_apply _ _ (ix2 r (0 : Fin 1)) (ix1 r) (by
      rw [Shape.rowMajor_val_one, Shape.rowMajor_val_two]; show r.val = r.val * 1 + 0; omega)

/-- Row `r`'s index with key `k` put back on the reduced axis is (r, k). -/
theorem lift_row (h : S512x2048.Reduces [1] S512) (r : Fin 512) (k : Fin 2048) : h.lift (ix1 r) k = ix2 r k := by
  funext c; apply Fin.ext
  fin_cases c <;> rfl

/-- The maximum reduction along the keys, at row `r`: the fold of `max` from `−∞` over the row. -/
theorem rowFold_apply (z : FVec Ideal S512x2048 .f32) (r : Fin 512) :
    multiReduction .maximumf [1] S512 z 0xFF800000#32 reduces_S512x2048_S512 (.inl rfl) rfl (ix1 r)
      = (Finset.univ : Finset (Fin 2048)).fold max negInfWord (fun k => z (ix2 r k)) := by
  refine (Ideal.multiReduction_maximumf_single z _ reduces_S512x2048_S512 (.inl rfl) rfl (ix1 r)).trans ?_
  exact congrArg (fun f => Finset.fold max negInfWord f (Finset.univ : Finset (Fin 2048)))
    (funext fun k => congrArg z (lift_row _ r k))

/-- The sum reduction along the keys, at row `r`: the sum over the row. -/
theorem rowSum_apply (e : FVec Ideal S512x2048 .f32) (r : Fin 512) :
    multiReduction .add [1] S512 e 0x00000000#32 reduces_S512x2048_S512 (.inl rfl) rfl (ix1 r)
      = ∑ k : Fin 2048, e (ix2 r k) := by
  refine (Ideal.multiReduction_add_single e _ reduces_S512x2048_S512 (.inl rfl) rfl (ix1 r)).trans ?_
  exact Finset.sum_congr rfl fun k _ => congrArg e (lift_row _ r k)

/-! ## The masked softmax of a block of logits -/

/-- The exponential of a block, at an index. -/
theorem exp_apply {s : Shape} (x : FVec Ideal s .f32) (i : s.Idx) : exp x i = Ideal.exp (x i) := rfl
/-- The logarithm of a block, at an index. -/
theorem log_apply {s : Shape} (x : FVec Ideal s .f32) (i : s.Idx) : log x i = Ideal.log (x i) := rfl
/-- A scalar float word is the word's extended real. -/
theorem scalar_word (w : BitVec 32) : Scalar.ofBits (F := Ideal) .f32 w = Ideal.ofBits .f32 w := rfl

/-- Each row's maximum, as the body takes it. -/
def rowMaxV (z : FVec Ideal S512x2048 .f32) : FVec Ideal S512 .f32 :=
  maximumf (broadcast S512 (Scalar.ofBits .f32 0xFF800000#32))
    (multiReduction .maximumf [1] S512 z 0xFF800000#32 reduces_S512x2048_S512 (.inl rfl) rfl)

/-- The exponentials of the logits, each shifted by its row's maximum. -/
def shiftedExp (z : FVec Ideal S512x2048 .f32) : FVec Ideal S512x2048 .f32 :=
  exp (subf z (broadcastTo S512x2048 (shapeCast S512x1 (rowMaxV z) shapeCasts_S512_S512x1) broadcasts_S512x1_S512x2048))

/-- Each row's sum. -/
def rowSumV (e : FVec Ideal S512x2048 .f32) : FVec Ideal S512 .f32 :=
  multiReduction .add [1] S512 e 0x00000000#32 reduces_S512x2048_S512 (.inl rfl) rfl

/-- The softmax of the rows of `z`, times the block `mk`. -/
def maskedSoftmax (z mk : FVec Ideal S512x2048 .f32) : FVec Ideal S512x2048 .f32 :=
  mulf (divf (shiftedExp z)
    (broadcastTo S512x2048 (shapeCast S512x1 (rowSumV (shiftedExp z)) shapeCasts_S512_S512x1) broadcasts_S512x1_S512x2048)) mk

/-- Row `r`'s maximum is the specification's row maximum of the row's logits. -/
theorem rowMaxV_apply (z : FVec Ideal S512x2048 .f32) (r : Fin 512) :
    rowMaxV z (ix1 r) = rowMax (fun k => z (ix2 r k)) := by
  unfold rowMaxV
  rw [maximumf_apply, broadcast_apply, scalar_word, rowFold_apply]
  rfl

/-- Entry (r, k) of the shifted exponentials is the specification's, for the row's logits. -/
theorem shiftedExp_apply (z : FVec Ideal S512x2048 .f32) (r : Fin 512) (k : Fin 2048) :
    shiftedExp z (ix2 r k) = expShift (fun k' => z (ix2 r k')) k := by
  unfold shiftedExp
  rw [exp_apply, subf_apply, column_apply, rowMaxV_apply]
  rfl

theorem rowSumV_apply (e : FVec Ideal S512x2048 .f32) (r : Fin 512) : rowSumV e (ix1 r) = ∑ k : Fin 2048, e (ix2 r k) :=
  rowSum_apply e r

/-- Entry (r, k) of the masked softmax: row `r`'s normalized exponential at `k`, times the mask value there. -/
theorem maskedSoftmax_apply (z mk : FVec Ideal S512x2048 .f32) (r : Fin 512) (k : Fin 2048) :
    maskedSoftmax z mk (ix2 r k)
      = Ideal.div (expShift (fun k' => z (ix2 r k')) k) (∑ k' : Fin 2048, expShift (fun k'' => z (ix2 r k'')) k') * mk (ix2 r k) := by
  unfold maskedSoftmax
  rw [mulf_apply, divf_apply, column_apply, rowSumV_apply, shiftedExp_apply]
  exact congrArg (fun s => Ideal.div (expShift (fun k' => z (ix2 r k')) k) s * mk (ix2 r k))
    (Finset.sum_congr rfl fun k' _ => shiftedExp_apply z r k')

end Cert.KernelIdeal.Block

end
-- ==== Proof.BlockLogits.lean ====
/-
  The block's logits and its two products, read entry by entry.

  The first product contracts the 128 channels of the query block (channel by position) against the keys
  (channel by key): entry (r, k) is ∑ c, v0 (0, c, r) · v2 (0, c, k). The logits are that product times the
  scale word plus the logarithm of the shifted mask, and the stored weights are the masked softmax of the logits:
  row `r` of the block is the specification's row with channels `v0 (0, c, r)`, keys `v2 (0, c, k)` and mask
  words `v6 (0, r, k)`. The second product contracts the 2048 keys of the values (channel by key) against the
  weights (row by key): entry (c, r) is ∑ k, values (c, k) · weights (r, k), the specification's attended value.
  Rounding a block to the narrower format is the identity on the extended reals.
-/
import proofs.«127525_j88880053224156_1_alg».proof.Proof.BlockSoftmax

noncomputable section

namespace Cert.KernelIdeal.Block

open Cert.KernelIdeal Cert.KernelIdeal.Gen Idealize.ShloMosaic Idealize.ShloMosaic.ValueIdx Cert.Attn

/-! ## The operands, at an index -/

/-- The query block as the first product takes it: channel by position. -/
def queryCols (v0 : Vec Ideal S1x128x512 .f32) : FVec Ideal S128x512 .bf16 :=
  truncf .bf16 (shapeCast S128x512 v0 shapeCasts_S1x128x512_S128x512) bitsLt_bf16_f32

/-- A [1, 128, 2048] block as a product takes it: channel by key. -/
def keyCols (v2 : Vec Ideal S1x128x2048 .f32) : FVec Ideal S128x2048 .bf16 :=
  truncf .bf16 (shapeCast S128x2048 v2 shapeCasts_S1x128x2048_S128x2048) bitsLt_bf16_f32

/-- The block's mask rows as numbers. -/
def maskBlock (v6 : Vec Ideal S1x512x2048 .i32) : FVec Ideal S512x2048 .f32 :=
  sitofp .f32 (shapeCast S512x2048 v6 shapeCasts_S1x512x2048_S512x2048)

theorem queryCols_apply (v0 : Vec Ideal S1x128x512 .f32) (c : Fin 128) (r : Fin 512) :
    queryCols v0 (ix2 c r) = v0 (ix3 (0 : Fin 1) c r) := by
  unfold queryCols
  rw [truncf_apply]
  exact shapeCast_apply _ _ (ix2 c r) (ix3 (0 : Fin 1) c r) (by
    rw [Shape.rowMajor_val_three, Shape.rowMajor_val_two]; show (0 * 128 + c.val) * 512 + r.val = c.val * 512 + r.val; omega)

theorem keyCols_apply (v2 : Vec Ideal S1x128x2048 .f32) (c : Fin 128) (k : Fin 2048) :
    keyCols v2 (ix2 c k) = v2 (ix3 (0 : Fin 1) c k) := by
  unfold keyCols
  rw [truncf_apply]
  exact shapeCast_apply _ _ (ix2 c k) (ix3 (0 : Fin 1) c k) (by
    rw [Shape.rowMajor_val_three, Shape.rowMajor_val_two]; show (0 * 128 + c.val) * 2048 + k.val = c.val * 2048 + k.val; omega)

theorem maskBlock_apply (v6 : Vec Ideal S1x512x2048 .i32) (r : Fin 512) (k : Fin 2048) :
    maskBlock v6 (ix2 r k) = maskVal (v6 (ix3 (0 : Fin 1) r k)) := by
  unfold maskBlock
  rw [sitofp_apply, shapeCast_apply _ _ (ix2 r k) (ix3 (0 : Fin 1) r k) (by
    rw [Shape.rowMajor_val_three, Shape.rowMajor_val_two]; show (0 * 512 + r.val) * 2048 + k.val = r.val * 2048 + k.val; omega)]
  rfl

/-! ## The first product: channels contracted -/

/-- The left operand of the first product is read at the result's row on its position axis. -/
theorem scores_lhs_pos (i : S512x2048.Idx) (q : dot_S128x512_S128x2048_S512x2048_0_0_1_1_n_n.contr.Idx) :
    (dot_S128x512_S128x2048_S512x2048_0_0_1_1_n_n.lhsIdx i q 1).val = (i 0).val := by
  unfold DotDims.lhsIdx
  rw [dif_neg (show ¬(1 : Fin S128x512.rank) ∈ dot_S128x512_S128x2048_S512x2048_0_0_1_1_n_n.lhsBatch by decide), dif_pos (show (1 : Fin S128x512.rank) ∈ dot_S128x512_S128x2048_S512x2048_0_0_1_1_n_n.lhsNonContracting by decide)]
  rfl

/-- The right operand of the first product is read at the result's column on its key axis. -/
theorem scores_rhs_key (i : S512x2048.Idx) (q : dot_S128x512_S128x2048_S512x2048_0_0_1_1_n_n.contr.Idx) :
    (dot_S128x512_S128x2048_S512x2048_0_0_1_1_n_n.rhsIdx i q 1).val = (i 1).val := by
  unfold DotDims.rhsIdx
  rw [dif_neg (show ¬(1 : Fin S128x2048.rank) ∈ dot_S128x512_S128x2048_S512x2048_0_0_1_1_n_n.rhsBatch by decide), dif_pos (show (1 : Fin S128x2048.rank) ∈ dot_S128x512_S128x2048_S512x2048_0_0_1_1_n_n.rhsNonContracting by decide)]
  rfl

/-- Entry (r, k) of the product of a channel-by-position block with a channel-by-key block, into zero: the sum
    over the 128 channels. -/
theorem scores_apply (L : FVec Ideal S128x512 .bf16) (R : FVec Ideal S128x2048 .bf16) (r : Fin 512) (k : Fin 2048) :
    matmul dot_S128x512_S128x2048_S512x2048_0_0_1_1_n_n none L R (constant (F := Ideal) S512x2048 .f32 0x00000000#32) (ix2 r k)
      = ∑ c : Fin 128, L (ix2 c r) * R (ix2 c k) := by
  refine (Ideal.matmul_constant_zero_apply dot_S128x512_S128x2048_S512x2048_0_0_1_1_n_n none L R (ix2 r k)).trans ?_
  rw [← Equiv.sum_comp (contrEquiv1 dot_S128x512_S128x2048_S512x2048_0_0_1_1_n_n 128 rfl rfl).symm]
  refine Finset.sum_congr rfl fun c _ => ?_
  have hc := contrEquiv1_symm_val dot_S128x512_S128x2048_S512x2048_0_0_1_1_n_n 128 rfl rfl c
  have el : dot_S128x512_S128x2048_S512x2048_0_0_1_1_n_n.lhsIdx (ix2 r k) ((contrEquiv1 dot_S128x512_S128x2048_S512x2048_0_0_1_1_n_n 128 rfl rfl).symm c) = ix2 c r := funext fun a => Fin.ext (by
    match a with
    | ⟨0, _⟩ => exact (dot_S128x512_S128x2048_S512x2048_0_0_1_1_n_n.lhsIdx_val_of_single rfl _ _).trans hc
    | ⟨1, _⟩ => exact scores_lhs_pos _ _)
  have er : dot_S128x512_S128x2048_S512x2048_0_0_1_1_n_n.rhsIdx (ix2 r k) ((contrEquiv1 dot_S128x512_S128x2048_S512x2048_0_0_1_1_n_n 128 rfl rfl).symm c) = ix2 c k := funext fun a => Fin.ext (by
    match a with
    | ⟨0, _⟩ => exact (dot_S128x512_S128x2048_S512x2048_0_0_1_1_n_n.rhsIdx_val_of_single rfl _ _).trans hc
    | ⟨1, _⟩ => exact scores_rhs_key _ _)
  rw [el, er]

/-! ## The logits and the stored weights -/

/-- The block's logits: the first product times the scale word, plus the logarithm of the shifted mask. -/
def blockLogits (v0 : Vec Ideal S1x128x512 .f32) (v2 : Vec Ideal S1x128x2048 .f32) (v6 : Vec Ideal S1x512x2048 .i32) : FVec Ideal S512x2048 .f32 :=
  addf (mulf (matmul dot_S128x512_S128x2048_S512x2048_0_0_1_1_n_n none (queryCols v0) (keyCols v2) (constant S512x2048 .f32 0x00000000#32))
      (broadcast S512x2048 (Scalar.ofBits .f32 0x3DB504F3#32)))
    (log (addf (maskBlock v6) (broadcast S512x2048 (Scalar.ofBits .f32 0x3089705F#32))))

/-- The body's weights payload is the masked softmax of the block's logits (by unfolding). -/
theorem pay2_split (v0 : Vec Ideal S1x128x512 .f32) (v2 : Vec Ideal S1x128x2048 .f32) (v6 : Vec Ideal S1x512x2048 .i32) :
    k0_pay2 (F := Ideal) v0 v2 v6 = maskedSoftmax (blockLogits v0 v2 v6) (maskBlock v6) := rfl

/-- Entry (r, k) of the logits is the specification's logit of key `k` in the row of the block's query `r`. -/
theorem blockLogits_apply (v0 : Vec Ideal S1x128x512 .f32) (v2 : Vec Ideal S1x128x2048 .f32) (v6 : Vec Ideal S1x512x2048 .i32)
    (r : Fin 512) (k : Fin 2048) :
    blockLogits v0 v2 v6 (ix2 r k)
      = logit (fun c => v0 (ix3 (0 : Fin 1) c r)) (fun c k' => v2 (ix3 (0 : Fin 1) c k')) (fun k' => v6 (ix3 (0 : Fin 1) r k')) k := by
  have h1 : matmul dot_S128x512_S128x2048_S512x2048_0_0_1_1_n_n none (queryCols v0) (keyCols v2) (constant (F := Ideal) S512x2048 .f32 0x00000000#32) (ix2 r k)
      = ∑ c : Fin 128, v0 (ix3 (0 : Fin 1) c r) * v2 (ix3 (0 : Fin 1) c k) :=
    (scores_apply _ _ r k).trans (Finset.sum_congr rfl fun c _ => by rw [queryCols_apply, keyCols_apply])
  have h2 := maskBlock_apply v6 r k
  unfold blockLogits logit
  rw [addf_apply, mulf_apply, broadcast_apply, scalar_word, log_apply, addf_apply, broadcast_apply, scalar_word, h1, h2]

/-- Entry (r, k) of the stored weights is the specification's weight of key `k` in the row of the block's query `r`. -/
theorem weights_block (v0 : Vec Ideal S1x128x512 .f32) (v2 : Vec Ideal S1x128x2048 .f32) (v6 : Vec Ideal S1x512x2048 .i32)
    (r : Fin 512) (k : Fin 2048) :
    k0_pay2 (F := Ideal) v0 v2 v6 (ix2 r k)
      = weight (fun c => v0 (ix3 (0 : Fin 1) c r)) (fun c k' => v2 (ix3 (0 : Fin 1) c k')) (fun k' => v6 (ix3 (0 : Fin 1) r k')) k := by
  have hz : (fun k' => blockLogits v0 v2 v6 (ix2 r k'))
      = logit (fun c => v0 (ix3 (0 : Fin 1) c r)) (fun c k' => v2 (ix3 (0 : Fin 1) c k')) (fun k' => v6 (ix3 (0 : Fin 1) r k')) :=
    funext fun k' => blockLogits_apply v0 v2 v6 r k'
  rw [pay2_split, maskedSoftmax_apply, maskBlock_apply, hz]
  rfl

/-! ## The second product: keys contracted -/

/-- The left operand of the second product is read at the result's channel on its channel axis. -/
theorem attend_lhs_chan (i : S128x512.Idx) (q : dot_S128x2048_S512x2048_S128x512_1_1_0_0_n_n.contr.Idx) :
    (dot_S128x2048_S512x2048_S128x512_1_1_0_0_n_n.lhsIdx i q 0).val = (i 0).val := by
  unfold DotDims.lhsIdx
  rw [dif_neg (show ¬(0 : Fin S128x2048.rank) ∈ dot_S128x2048_S512x2048_S128x512_1_1_0_0_n_n.lhsBatch by decide), dif_pos (show (0 : Fin S128x2048.rank) ∈ dot_S128x2048_S512x2048_S128x512_1_1_0_0_n_n.lhsNonContracting by decide)]
  rfl

/-- The right operand of the second product is read at the result's position on its row axis. -/
theorem attend_rhs_row (i : S128x512.Idx) (q : dot_S128x2048_S512x2048_S128x512_1_1_0_0_n_n.contr.Idx) :
    (dot_S128x2048_S512x2048_S128x512_1_1_0_0_n_n.rhsIdx i q 0).val = (i 1).val := by
  unfold DotDims.rhsIdx
  rw [dif_neg (show ¬(0 : Fin S512x2048.rank) ∈ dot_S128x2048_S512x2048_S128x512_1_1_0_0_n_n.rhsBatch by decide), dif_pos (show (0 : Fin S512x2048.rank) ∈ dot_S128x2048_S512x2048_S128x512_1_1_0_0_n_n.rhsNonContracting by decide)]
  rfl

/-- Entry (c, r) of the product of a channel-by-key block with a row-by-key block, into zero: the sum over the
    2048 keys. -/
theorem attend_apply (L : FVec Ideal S128x2048 .bf16) (R : FVec Ideal S512x2048 .bf16) (c : Fin 128) (r : Fin 512) :
    matmul dot_S128x2048_S512x2048_S128x512_1_1_0_0_n_n none L R (constant (F := Ideal) S128x512 .f32 0x00000000#32) (ix2 c r)
      = ∑ k : Fin 2048, L (ix2 c k) * R (ix2 r k) := by
  refine (Ideal.matmul_constant_zero_apply dot_S128x2048_S512x2048_S128x512_1_1_0_0_n_n none L R (ix2 c r)).trans ?_
  rw [← Equiv.sum_comp (contrEquiv1 dot_S128x2048_S512x2048_S128x512_1_1_0_0_n_n 2048 rfl rfl).symm]
  refine Finset.sum_congr rfl fun k _ => ?_
  have hk := contrEquiv1_symm_val dot_S128x2048_S512x2048_S128x512_1_1_0_0_n_n 2048 rfl rfl k
  have el : dot_S128x2048_S512x2048_S128x512_1_1_0_0_n_n.lhsIdx (ix2 c r) ((contrEquiv1 dot_S128x2048_S512x2048_S128x512_1_1_0_0_n_n 2048 rfl rfl).symm k) = ix2 c k := funext fun a => Fin.ext (by
    match a with
    | ⟨0, _⟩ => exact attend_lhs_chan _ _
    | ⟨1, _⟩ => exact (dot_S128x2048_S512x2048_S128x512_1_1_0_0_n_n.lhsIdx_val_of_single rfl _ _).trans hk)
  have er : dot_S128x2048_S512x2048_S128x512_1_1_0_0_n_n.rhsIdx (ix2 c r) ((contrEquiv1 dot_S128x2048_S512x2048_S128x512_1_1_0_0_n_n 2048 rfl rfl).symm k) = ix2 r k := funext fun a => Fin.ext (by
    match a with
    | ⟨0, _⟩ => exact attend_rhs_row _ _
    | ⟨1, _⟩ => exact (dot_S128x2048_S512x2048_S128x512_1_1_0_0_n_n.rhsIdx_val_of_single rfl _ _).trans hk)
  rw [el, er]

/-- The values block as the second product takes it is the channel-by-key form. -/
theorem pay4_eq (v4 : Vec Ideal S1x128x2048 .f32) : k0_pay4 (F := Ideal) v4 = keyCols v4 := rfl

/-- The weights as the second product takes them are the stored weights: rounding to the narrower format is the identity. -/
theorem pay5_apply (v0 : Vec Ideal S1x128x512 .f32) (v2 : Vec Ideal S1x128x2048 .f32) (v6 : Vec Ideal S1x512x2048 .i32)
    (r : Fin 512) (k : Fin 2048) :
    k0_pay5 (F := Ideal) v0 v2 v6 (ix2 r k) = k0_pay2 (F := Ideal) v0 v2 v6 (ix2 r k) := by
  show truncf .bf16 (k0_pay2 (F := Ideal) v0 v2 v6) bitsLt_bf16_f32 (ix2 r k) = _
  rw [truncf_apply]

/-- Entry (0, c, r) of the stored block of attended values is the specification's attended value: channel `c` of the
    values against the weights of the row of the block's query `r`. -/
theorem attended_block (v0 : Vec Ideal S1x128x512 .f32) (v2 v4 : Vec Ideal S1x128x2048 .f32) (v6 : Vec Ideal S1x512x2048 .i32)
    (c : Fin 128) (r : Fin 512) :
    k0_pay1 (F := Ideal) (k0_pay4 v4) (k0_pay5 v0 v2 v6) (constant S128x512 .f32 0x00000000#32) (ix3 (0 : Fin 1) c r)
      = attended (fun k => v4 (ix3 (0 : Fin 1) c k)) (fun c' => v0 (ix3 (0 : Fin 1) c' r)) (fun c' k => v2 (ix3 (0 : Fin 1) c' k))
          (fun k => v6 (ix3 (0 : Fin 1) r k)) := by
  have hcast : k0_pay1 (F := Ideal) (k0_pay4 v4) (k0_pay5 v0 v2 v6) (constant S128x512 .f32 0x00000000#32) (ix3 (0 : Fin 1) c r)
      = matmul dot_S128x2048_S512x2048_S128x512_1_1_0_0_n_n none (k0_pay4 (F := Ideal) v4) (k0_pay5 (F := Ideal) v0 v2 v6) (constant (F := Ideal) S128x512 .f32 0x00000000#32) (ix2 c r) := by
    show shapeCast S1x128x512 (matmul dot_S128x2048_S512x2048_S128x512_1_1_0_0_n_n none (k0_pay4 (F := Ideal) v4) (k0_pay5 (F := Ideal) v0 v2 v6) (constant (F := Ideal) S128x512 .f32 0x00000000#32))
        shapeCasts_S128x512_S1x128x512 (ix3 (0 : Fin 1) c r) = _
    exact shapeCast_apply _ _ (ix3 (0 : Fin 1) c r) (ix2 c r) (by
      rw [Shape.rowMajor_val_three, Shape.rowMajor_val_two]; show c.val * 512 + r.val = (0 * 128 + c.val) * 512 + r.val; omega)
  rw [hcast, attend_apply]
  unfold attended
  refine Finset.sum_congr rfl fun k _ => ?_
  rw [pay4_eq, keyCols_apply, pay5_apply, weights_block]

end Cert.KernelIdeal.Block

end
-- ==== Proof.BlockStores.lean ====
/-
  What a grid point stores, entry by entry.

  Each output window is stored whole, once, so what a point leaves in the window's buffer is the stored payload.
  Over blocks `x0` (queries, [1, 128, 512]), `x1` (keys, [1, 128, 2048]), `x2` (values, [1, 128, 2048]) and `x3`
  (mask rows, [1, 512, 2048]) the weights buffer holds at (0, r, k) the specification's weight of key `k` in the
  row of the block's query `r`, and the attended-values buffer holds at (0, c, r) channel `c` of the values
  summed against that row's weights.
-/
import proofs.«127525_j88880053224156_1_alg».proof.Proof.Gen.KernelIdeal.Frame
import proofs.«127525_j88880053224156_1_alg».proof.Proof.BlockLogits

noncomputable section

namespace Cert.KernelIdeal.Block

open Cert.KernelIdeal Cert.KernelIdeal.Gen Idealize.ShloMosaic Idealize.ShloMosaic.ValueIdx Cert.Attn

/-- The three zero offsets of a whole-block access. -/
theorem zero_offsets : (![0, 0, 0] : Fin 3 → Nat) = fun _ => 0 := funext fun a => by fin_cases a <;> rfl

/-- The weights re-laid with a leading unit axis: entry (0, r, k) is entry (r, k). -/
theorem pay3_apply (v0 : Vec Ideal S1x128x512 .f32) (v2 : Vec Ideal S1x128x2048 .f32) (v6 : Vec Ideal S1x512x2048 .i32)
    (r : Fin 512) (k : Fin 2048) :
    k0_pay3 (F := Ideal) v0 v2 v6 (ix3 (0 : Fin 1) r k) = k0_pay2 (F := Ideal) v0 v2 v6 (ix2 r k) := by
  show shapeCast S1x512x2048 (k0_pay2 (F := Ideal) v0 v2 v6) shapeCasts_S512x2048_S1x512x2048 (ix3 (0 : Fin 1) r k) = _
  exact shapeCast_apply _ _ (ix3 (0 : Fin 1) r k) (ix2 r k) (by
    rw [Shape.rowMajor_val_two, Shape.rowMajor_val_three]; show r.val * 2048 + k.val = (0 * 512 + r.val) * 2048 + k.val; omega)

/-- The weights buffer after the body, at (0, r, k). -/
theorem weights_stored (x0 : Vec Ideal S1x128x512 .f32) (x1 x2 : Vec Ideal S1x128x2048 .f32) (x3 : Vec Ideal S1x512x2048 .i32)
    (r : Fin 512) (k : Fin 2048) :
    out0_5 (F := Ideal) x0 x1 x2 x3 (ix3 (0 : Fin 1) r k)
      = weight (fun c => x0 (ix3 (0 : Fin 1) c r)) (fun c k' => x1 (ix3 (0 : Fin 1) c k')) (fun k' => x3 (ix3 (0 : Fin 1) r k')) k := by
  unfold out0_5
  rw [View.canon_unit_zero zero_offsets]
  simp only [View.ld_unit_zero (S := S1x128x512) zero_offsets, View.ld_unit_zero (S := S1x128x2048) zero_offsets,
    View.ld_unit_zero (S := S1x512x2048) zero_offsets]
  rw [pay3_apply]
  exact weights_block x0 x1 x3 r k

/-- The attended-values buffer after the body, at (0, c, r). -/
theorem attended_stored (x0 : Vec Ideal S1x128x512 .f32) (x1 x2 : Vec Ideal S1x128x2048 .f32) (x3 : Vec Ideal S1x512x2048 .i32)
    (c : Fin 128) (r : Fin 512) :
    out0_4 (F := Ideal) x0 x1 x2 x3 (ix3 (0 : Fin 1) c r)
      = attended (fun k => x2 (ix3 (0 : Fin 1) c k)) (fun c' => x0 (ix3 (0 : Fin 1) c' r)) (fun c' k => x1 (ix3 (0 : Fin 1) c' k))
          (fun k => x3 (ix3 (0 : Fin 1) r k)) := by
  unfold out0_4
  rw [View.canon_unit_zero zero_offsets]
  simp only [View.ld_unit_zero (S := S1x128x512) zero_offsets, View.ld_unit_zero (S := S1x128x2048) zero_offsets,
    View.ld_unit_zero (S := S1x512x2048) zero_offsets]
  exact attended_block x0 x1 x2 x3 c r

end Cert.KernelIdeal.Block

end
-- ==== Proof.KernelArrays.lean ====
/-
  From blocks to whole arrays.

  The grid has 8 × 4 points: point (b, j) works on batch `b` and on the 512 query positions 512·j … 512·j + 511.
  There it reads the query block (b, ·, 512·j + r), all keys and values of batch `b`, and the mask rows
  (b, 512·j + r, ·); it writes the weights block (b, 512·j + r, ·) and the attended-values block (b, ·, 512·j + r).
  So an entry of a stored block is the specification's array at the entry's place in the whole array: the
  block's row `r` is query 512·j + r of batch `b`, whose channels, keys and mask words are exactly what the
  point's input blocks hold. Every query position lies in exactly one block (j = position / 512), so the blocks
  cover both output arrays, and after the run the two arrays are the specification's `weights` and `values` of
  the argument arrays.
-/
import proofs.«127525_j88880053224156_1_alg».proof.Proof.Gen.KernelIdeal.Value
import proofs.«127525_j88880053224156_1_alg».proof.Proof.BlockStores

set_option maxRecDepth 16384

noncomputable section

namespace Cert.KernelIdeal.Arrays

open Cert.KernelIdeal Cert.KernelIdeal.Gen Cert.KernelIdeal.Block Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-! ## The index maps over the grid -/

/-- Every window's block index at a point, against the weights window's (batch, query block, 0): the query and the
    attended-values blocks sit at (batch, 0, query block), the keys and values at (batch, 0, 0), the mask rows with
    the weights. Decided over the 32 points. -/
theorem index_facts : ∀ t : Fin cfg0.N,
    win0_0.index t (0 : Fin 3) = win0_5.index t (0 : Fin 3) ∧ win0_0.index t (1 : Fin 3) = 0 ∧ win0_0.index t (2 : Fin 3) = win0_5.index t (1 : Fin 3)
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = 0 ∧ win0_4.index t (2 : Fin 3) = win0_5.index t (1 : Fin 3)
    ∧ win0_5.index t (0 : Fin 3) ≤ 7 ∧ win0_5.index t (1 : Fin 3) ≤ 3 ∧ win0_5.index t (2 : Fin 3) = 0 :=
  (by decide +kernel : ∀ t : Fin grid0.N, _)

/-- Every (batch, query block) is some point's weights block. -/
theorem weights_onto : ∀ (q0 : Fin 8) (q1 : Fin 4), ∃ t : Fin cfg0.N, win0_5.index t = ![q0.val, q1.val, 0] :=
  (by decide +kernel : ∀ (q0 : Fin 8) (q1 : Fin 4), ∃ t : Fin grid0.N, win0_5.index t = ![q0.val, q1.val, 0])

/-- Every (batch, query block) is some point's attended-values block. -/
theorem values_onto : ∀ (q0 : Fin 8) (q1 : Fin 4), ∃ t : Fin cfg0.N, win0_4.index t = ![q0.val, 0, q1.val] :=
  (by decide +kernel : ∀ (q0 : Fin 8) (q1 : Fin 4), ∃ t : Fin grid0.N, win0_4.index t = ![q0.val, 0, q1.val])

/-! ## What a point writes back -/

/-- Point `t` writes back block `t` of the specification's weights of the argument arrays. -/
theorem weights_flushed (c : Dev nD) (t : Fin cfg0.N) :
    (dats m 0 c).flushed 5 t
      = ((cfg0.win 5).blk t).view.read (Elt Ideal) (weights (V m c main_arg0) (V m c main_arg1) (V m c main_arg3)) := by
  rw [Value.flushed5]
  obtain ⟨a00, a01, a02, a10, a11, a12, a20, a21, a22, a30, a31, a32, a40, a41, a42, b0, b1, b2⟩ := index_facts t
  refine funext fun (y : S1x512x2048.Idx) => ?_
  obtain ⟨r, k, rfl⟩ : ∃ (r : Fin 512) (k : Fin 2048), y = ix3 (0 : Fin 1) r k :=
    ⟨y 1, y 2, funext fun a => by match a with | ⟨0, _⟩ => exact Fin.ext (by have h1 : (y 0).val < 1 := (y 0).isLt; show (y 0).val = 0; omega) | ⟨1, _⟩ => rfl | ⟨2, _⟩ => rfl⟩
  show out0_5 (iblk m c 0 t) (iblk m c 1 t) (iblk m c 2 t) (iblk m c 3 t) (ix3 (0 : Fin 1) r k)
      = weights (V m c main_arg0) (V m c main_arg1) (V m c main_arg3) (((cfg0.win 5).blk t).view.emb (ix3 (0 : Fin 1) r k))
  refine (weights_stored (iblk m c 0 t) (iblk m c 1 t) (iblk m c 2 t) (iblk m c 3 t) r k).trans ?_
  have hq : (fun c' : Fin 128 => iblk m c 0 t (ix3 (0 : Fin 1) c' r))
      = fun c' : Fin 128 => V m c main_arg0 (ix3 ((((cfg0.win 5).blk t).view.emb (ix3 (0 : Fin 1) r k)) 0 : Fin 8) c' ((((cfg0.win 5).blk t).view.emb (ix3 (0 : Fin 1) r k)) 1 : Fin 2048)) := funext fun c' => by
    show V m c main_arg0 (((cfg0.win 0).blk t).view.emb (ix3 (0 : Fin 1) c' r)) = _
    refine congrArg (V m c main_arg0) (funext fun a => Fin.ext ?_)
    match a with
    | ⟨0, _⟩ => show win0_0.index t (0 : Fin 3) * 1 + 1 * 0 = win0_5.index t (0 : Fin 3) * 1 + 1 * 0; omega
    | ⟨1, _⟩ => show win0_0.index t (1 : Fin 3) * 128 + 1 * c'.val = c'.val; omega
    | ⟨2, _⟩ => show win0_0.index t (2 : Fin 3) * 512 + 1 * r.val = win0_5.index t (1 : Fin 3) * 512 + 1 * r.val; omega
  have hk : (fun (c' : Fin 128) (k' : Fin 2048) => iblk m c 1 t (ix3 (0 : Fin 1) c' k'))
      = fun (c' : Fin 128) (k' : Fin 2048) => V m c main_arg1 (ix3 ((((cfg0.win 5).blk t).view.emb (ix3 (0 : Fin 1) r k)) 0 : Fin 8) c' k') := funext fun c' => funext fun k' => by
    show V m c main_arg1 (((cfg0.win 1).blk t).view.emb (ix3 (0 : Fin 1) c' k')) = _
    refine congrArg (V m c main_arg1) (funext fun a => Fin.ext ?_)
    match a with
    | ⟨0, _⟩ => show win0_1.index t (0 : Fin 3) * 1 + 1 * 0 = win0_5.index t (0 : Fin 3) * 1 + 1 * 0; omega
    | ⟨1, _⟩ => show win0_1.index t (1 : Fin 3) * 128 + 1 * c'.val = c'.val; omega
    | ⟨2, _⟩ => show win0_1.index t (2 : Fin 3) * 2048 + 1 * k'.val = k'.val; omega
  have hm : (fun k' : Fin 2048 => iblk m c 3 t (ix3 (0 : Fin 1) r k'))
      = fun k' : Fin 2048 => V m c main_arg3 (ix3 ((((cfg0.win 5).blk t).view.emb (ix3 (0 : Fin 1) r k)) 0 : Fin 8) ((((cfg0.win 5).blk t).view.emb (ix3 (0 : Fin 1) r k)) 1 : Fin 2048) k') := funext fun k' => by
    show V m c main_arg3 (((cfg0.win 3).blk t).view.emb (ix3 (0 : Fin 1) r k')) = _
    refine congrArg (V m c main_arg3) (funext fun a => Fin.ext ?_)
    match a with
    | ⟨0, _⟩ => show win0_3.index t (0 : Fin 3) * 1 + 1 * 0 = win0_5.index t (0 : Fin 3) * 1 + 1 * 0; omega
    | ⟨1, _⟩ => show win0_3.index t (1 : Fin 3) * 512 + 1 * r.val = win0_5.index t (1 : Fin 3) * 512 + 1 * r.val; omega
    | ⟨2, _⟩ => show win0_3.index t (2 : Fin 3) * 2048 + 1 * k'.val = k'.val; omega
  have hkey : ((((cfg0.win 5).blk t).view.emb (ix3 (0 : Fin 1) r k)) 2 : Fin 2048) = k := Fin.ext (by
    show win0_5.index t (2 : Fin 3) * 2048 + 1 * k.val = k.val; omega)
  unfold weights
  rw [hq, hk, hm, hkey]

/-- Point `t` writes back block `t` of the specification's attended values of the argument arrays. -/
theorem values_flushed (c : Dev nD) (t : Fin cfg0.N) :
    (dats m 0 c).flushed 4 t
      = ((cfg0.win 4).blk t).view.read (Elt Ideal)
          (values (V m c main_arg0) (V m c main_arg1) (V m c main_arg2) (V m c main_arg3)) := by
  rw [Value.flushed4]
  obtain ⟨a00, a01, a02, a10, a11, a12, a20, a21, a22, a30, a31, a32, a40, a41, a42, b0, b1, b2⟩ := index_facts t
  refine funext fun (y : S1x128x512.Idx) => ?_
  obtain ⟨ch, r, rfl⟩ : ∃ (ch : Fin 128) (r : Fin 512), y = ix3 (0 : Fin 1) ch r :=
    ⟨y 1, y 2, funext fun a => by match a with | ⟨0, _⟩ => exact Fin.ext (by have h1 : (y 0).val < 1 := (y 0).isLt; show (y 0).val = 0; omega) | ⟨1, _⟩ => rfl | ⟨2, _⟩ => rfl⟩
  show out0_4 (iblk m c 0 t) (iblk m c 1 t) (iblk m c 2 t) (iblk m c 3 t) (ix3 (0 : Fin 1) ch r)
      = values (V m c main_arg0) (V m c main_arg1) (V m c main_arg2) (V m c main_arg3) (((cfg0.win 4).blk t).view.emb (ix3 (0 : Fin 1) ch r))
  refine (attended_stored (iblk m c 0 t) (iblk m c 1 t) (iblk m c 2 t) (iblk m c 3 t) ch r).trans ?_
  have hv : (fun k' : Fin 2048 => iblk m c 2 t (ix3 (0 : Fin 1) ch k'))
      = fun k' : Fin 2048 => V m c main_arg2 (ix3 ((((cfg0.win 4).blk t).view.emb (ix3 (0 : Fin 1) ch r)) 0 : Fin 8) ((((cfg0.win 4).blk t).view.emb (ix3 (0 : Fin 1) ch r)) 1 : Fin 128) k') := funext fun k' => by
    show V m c main_arg2 (((cfg0.win 2).blk t).view.emb (ix3 (0 : Fin 1) ch k')) = _
    refine congrArg (V m c main_arg2) (funext fun a => Fin.ext ?_)
    match a with
    | ⟨0, _⟩ => show win0_2.index t (0 : Fin 3) * 1 + 1 * 0 = win0_4.index t (0 : Fin 3) * 1 + 1 * 0; omega
    | ⟨1, _⟩ => show win0_2.index t (1 : Fin 3) * 128 + 1 * ch.val = win0_4.index t (1 : Fin 3) * 128 + 1 * ch.val; omega
    | ⟨2, _⟩ => show win0_2.index t (2 : Fin 3) * 2048 + 1 * k'.val = k'.val; omega
  have hq : (fun c' : Fin 128 => iblk m c 0 t (ix3 (0 : Fin 1) c' r))
      = fun c' : Fin 128 => V m c main_arg0 (ix3 ((((cfg0.win 4).blk t).view.emb (ix3 (0 : Fin 1) ch r)) 0 : Fin 8) c' ((((cfg0.win 4).blk t).view.emb (ix3 (0 : Fin 1) ch r)) 2 : Fin 2048)) := funext fun c' => by
    show V m c main_arg0 (((cfg0.win 0).blk t).view.emb (ix3 (0 : Fin 1) c' r)) = _
    refine congrArg (V m c main_arg0) (funext fun a => Fin.ext ?_)
    match a with
    | ⟨0, _⟩ => show win0_0.index t (0 : Fin 3) * 1 + 1 * 0 = win0_4.index t (0 : Fin 3) * 1 + 1 * 0; omega
    | ⟨1, _⟩ => show win0_0.index t (1 : Fin 3) * 128 + 1 * c'.val = c'.val; omega
    | ⟨2, _⟩ => show win0_0.index t (2 : Fin 3) * 512 + 1 * r.val = win0_4.index t (2 : Fin 3) * 512 + 1 * r.val; omega
  have hk : (fun (c' : Fin 128) (k' : Fin 2048) => iblk m c 1 t (ix3 (0 : Fin 1) c' k'))
      = fun (c' : Fin 128) (k' : Fin 2048) => V m c main_arg1 (ix3 ((((cfg0.win 4).blk t).view.emb (ix3 (0 : Fin 1) ch r)) 0 : Fin 8) c' k') := funext fun c' => funext fun k' => by
    show V m c main_arg1 (((cfg0.win 1).blk t).view.emb (ix3 (0 : Fin 1) c' k')) = _
    refine congrArg (V m c main_arg1) (funext fun a => Fin.ext ?_)
    match a with
    | ⟨0, _⟩ => show win0_1.index t (0 : Fin 3) * 1 + 1 * 0 = win0_4.index t (0 : Fin 3) * 1 + 1 * 0; omega
    | ⟨1, _⟩ => show win0_1.index t (1 : Fin 3) * 128 + 1 * c'.val = c'.val; omega
    | ⟨2, _⟩ => show win0_1.index t (2 : Fin 3) * 2048 + 1 * k'.val = k'.val; omega
  have hm : (fun k' : Fin 2048 => iblk m c 3 t (ix3 (0 : Fin 1) r k'))
      = fun k' : Fin 2048 => V m c main_arg3 (ix3 ((((cfg0.win 4).blk t).view.emb (ix3 (0 : Fin 1) ch r)) 0 : Fin 8) ((((cfg0.win 4).blk t).view.emb (ix3 (0 : Fin 1) ch r)) 2 : Fin 2048) k') := funext fun k' => by
    show V m c main_arg3 (((cfg0.win 3).blk t).view.emb (ix3 (0 : Fin 1) r k')) = _
    refine congrArg (V m c main_arg3) (funext fun a => Fin.ext ?_)
    match a with
    | ⟨0, _⟩ => show win0_3.index t (0 : Fin 3) * 1 + 1 * 0 = win0_4.index t (0 : Fin 3) * 1 + 1 * 0; omega
    | ⟨1, _⟩ => show win0_3.index t (1 : Fin 3) * 512 + 1 * r.val = win0_4.index t (2 : Fin 3) * 512 + 1 * r.val; omega
    | ⟨2, _⟩ => show win0_3.index t (2 : Fin 3) * 2048 + 1 * k'.val = k'.val; omega
  unfold values
  rw [hv, hq, hk, hm]

/-! ## The blocks cover the arrays -/

/-- An index of the weights array is in point `t`'s block iff each coordinate is in the block's range on its axis. -/
theorem mem_weights_blk (t : Fin cfg0.N) (i : S8x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v0_1).slice (win0_5.rect t)).set ↔ _
  rw [View.set_slice_whole, Rect.mem_set_unit]
  exact Iff.rfl

/-- An index of the attended-values array is in point `t`'s block iff each coordinate is in the block's range. -/
theorem mem_values_blk (t : Fin cfg0.N) (i : S8x128x2048.Idx) :
    i ∈ ((cfg0.win 4).blk t).view.set ↔ ∀ a : Fin 3, win0_4.index t a * S1x128x512.size a ≤ (i a).val
      ∧ (i a).val < win0_4.index t a * S1x128x512.size a + S1x128x512.size a := by
  show i ∈ ((View.whole main_v0_0).slice (win0_4.rect t)).set ↔ _
  rw [View.set_slice_whole, Rect.mem_set_unit]
  exact Iff.rfl

/-- Every entry (b, q, k) of the weights array is in the block of the point (b, q / 512). -/
theorem weights_cover (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := weights_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_weights_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Every entry (b, c, q) of the attended-values array is in the block of the point (b, q / 512). -/
theorem values_cover (i : S8x128x2048.Idx) :
    ∃ t : Fin cfg0.N, (cfg0.win 4).flush t = true ∧ i ∈ ((cfg0.win 4).blk t).view.set := by
  have hi0 : (i 0).val < 8 := (i 0).isLt
  have hi1 : (i 1).val < 128 := (i 1).isLt
  have hi2 : (i 2).val < 2048 := (i 2).isLt
  obtain ⟨t, ht⟩ := values_onto ⟨(i 0).val, hi0⟩ ⟨(i 2).val / 512, by omega⟩
  have q0 : win0_4.index t (0 : Fin 3) = (i 0).val := congrFun ht 0
  have q1 : win0_4.index t (1 : Fin 3) = 0 := congrFun ht 1
  have q2 : win0_4.index t (2 : Fin 3) = (i 2).val / 512 := congrFun ht 2
  refine ⟨t, flush0_4 t, ?_⟩
  rw [mem_values_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 512 ≤ (i 2).val ∧ (i 2).val < win0_4.index t (2 : Fin 3) * 512 + 512; omega

/-! ## The arrays after the run -/

/-- The weights array after the run is the specification's weights of the argument arrays. -/
theorem weights_final (c : Dev nD) :
    (dats m 0 c).arrAt 5 cfg0.N
      = weights (m ((c : Thread nD τ).loc main_arg0)) (m ((c : Thread nD τ).loc main_arg1)) (m ((c : Thread nD τ).loc main_arg3)) :=
  (dats m 0 c).arrAt_eq_of_cover 5 _ (fun t _ => weights_flushed m c t) weights_cover

/-- The attended-values array after the run is the specification's values of the argument arrays. -/
theorem values_final (c : Dev nD) :
    (dats m 0 c).arrAt 4 cfg0.N
      = values (m ((c : Thread nD τ).loc main_arg0)) (m ((c : Thread nD τ).loc main_arg1)) (m ((c : Thread nD τ).loc main_arg2))
          (m ((c : Thread nD τ).loc main_arg3)) :=
  (dats m 0 c).arrAt_eq_of_cover 4 _ (fun t _ => values_flushed m c t) values_cover

/-- Every weakly fair execution of the kernel's program terminates with the two result arrays at the specification's
    values and weights of the argument arrays, and the arguments unchanged. -/
theorem run : θ_run defs (onTc (τ := τ) (main (F := Ideal))) ⟨m, fun _ => 0, ρ⟩ fun r => ∀ c : Dev nD,
      r.2.mem ((c : Thread nD τ).loc main_v0_0)
        = values (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (values_final m c), (h c).2.1.trans (weights_final m c), (h c).2.2⟩)
    (Value.run_blocks m ρ)

end Cert.KernelIdeal.Arrays

end
-- ==== Proof.RefAttention.lean ====
/-
  The reference's two results are the specification's arrays.

  The reference computes, over whole arrays, the batched product of queries and keys over the channels, the
  scale, the logarithm of the shifted mask, a row maximum and a row sum along the keys, the quotient, the mask,
  and the batched product with the values over the keys. Read at an entry, stage by stage, the weights at
  (b, q, k) are the specification's weight of key `k` in the row of query `q` of batch `b`, and the attended
  values at (b, c, q) sum channel `c` of the values against that row's weights. The row maximum is a reduction
  with a maximum body from `−∞`: at (b, q) it is the fold of `max` over the 2048 keys of the row, in any order,
  since `max` commutes and associates.
-/
import proofs.«127525_j88880053224156_1_alg».proof.Proof.Gen.ReferenceIdeal.Read
import proofs.«127525_j88880053224156_1_alg».proof.Proof.AttnSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S8x128x2048, .f32⟩ : BufTy).Contents (Elt Ideal)) (x3 : (⟨S8x2048x2048, .i32⟩ : BufTy).Contents (Elt Ideal))

/-- A row's index with key `k` put back on the reduced axis is (b, q, k). -/
theorem lift_row (h : S8x2048x2048.Reduces [2] S8x2048) (b : Fin 8) (q k : Fin 2048) : h.lift (ix2 b q) k = ix3 b q k := by
  funext c; apply Fin.ext
  fin_cases c <;> rfl

/-- The logits: entry (b, q, k) is the specification's logit of key `k` in the row of query `q` of batch `b`. -/
theorem logits_ref (b : Fin 8) (q k : Fin 2048) :
    val_main_v7 (F := Ideal) x0 x1 x3 (ix3 b q k)
      = logit (fun c => x0 (ix3 b c q)) (fun c k' => x1 (ix3 b c k')) (fun k' => x3 (ix3 b q k')) k := by
  have el : ∀ c : Fin 128, lidx_main_v0 (ix3 b q k) c = ix3 b c q := fun c => funext fun a => Fin.ext (by
    match a with | ⟨0, _⟩ => rfl | ⟨1, _⟩ => rfl | ⟨2, _⟩ => rfl)
  have er : ∀ c : Fin 128, ridx_main_v0 (ix3 b q k) c = ix3 b c k := fun c => funext fun a => Fin.ext (by
    match a with | ⟨0, _⟩ => rfl | ⟨1, _⟩ => rfl | ⟨2, _⟩ => rfl)
  rw [val_main_v7_apply, val_main_v2_apply, val_main_v0_apply, val_main_v1_apply, val_main_cst_apply, val_main_v6_apply,
    val_main_v5_apply, val_main_v3_apply, val_main_v4_apply, val_main_cst_0_apply]
  simp only [el, er]
  rfl

/-- The row maximum: at (b, q) the specification's row maximum of the row's logits. -/
theorem rowMax_ref (b : Fin 8) (q : Fin 2048) :
    val_main_v10 (F := Ideal) x0 x1 x3 (ix2 b q) = rowMax (fun k => val_main_v7 (F := Ideal) x0 x1 x3 (ix3 b q k)) := by
  have hred : S8x2048x2048.Reduces [2] S8x2048 := by decide
  have hf : (val_main_v7 (F := Ideal) x0 x1 x3 ∘ hred.lift (ix2 b q))
      = fun k : Fin 2048 => val_main_v7 (F := Ideal) x0 x1 x3 (ix3 b q k) :=
    funext fun k => congrArg (val_main_v7 (F := Ideal) x0 x1 x3) (lift_row hred b q k)
  have hfold : val_main_v8 (F := Ideal) x0 x1 x3 (ix2 b q)
      = (Finset.univ : Finset (Fin 2048)).fold max negInfWord (fun k => val_main_v7 (F := Ideal) x0 x1 x3 (ix3 b q k)) := by
    refine (Host.reduce_eq_fold_single (FloatOps.maximumf (F := Ideal) (φ := .f32)) (val_main_v7 (F := Ideal) x0 x1 x3)
      (val_main_cst_1 (F := Ideal)) reducesTo_S8x2048x2048_S8x2048_d2 hred h_S_ (ix2 b q)).trans ?_
    exact congrArg (fun f => Finset.fold max negInfWord f (Finset.univ : Finset (Fin 2048))) hf
  rw [val_main_v10_apply, val_main_v9_apply, val_main_cst_2_apply, hfold]
  rfl

/-- The shifted exponentials: entry (b, q, k) is the specification's, for the row's logits. -/
theorem expShift_ref (b : Fin 8) (q k : Fin 2048) :
    val_main_v14 (F := Ideal) x0 x1 x3 (ix3 b q k)
      = expShift (fun k' => val_main_v7 (F := Ideal) x0 x1 x3 (ix3 b q k')) k := by
  have e1 : idx_main_v11 (idx_main_v12 (ix3 b q k)) = ix2 b q := funext fun a => Fin.ext (by
    match a with | ⟨0, _⟩ => rfl | ⟨1, _⟩ => rfl)
  rw [val_main_v14_apply, val_main_v13_apply, val_main_v12_apply, val_main_v11_apply, e1, rowMax_ref]
  rfl

/-- The row sum: at (b, q) the sum of the row's shifted exponentials. -/
theorem rowSum_ref (b : Fin 8) (q : Fin 2048) :
    val_main_v15 (F := Ideal) x0 x1 x3 (ix2 b q)
      = ∑ k : Fin 2048, expShift (fun k' => val_main_v7 (F := Ideal) x0 x1 x3 (ix3 b q k')) k := by
  rw [val_main_v15_apply, val_main_cst_3_apply, Ideal.ofBits_def, Ideal.ofBits_zero_f32, zero_add]
  refine Finset.sum_congr rfl fun k _ => ?_
  have e : idx_main_v15 (ix2 b q) k = ix3 b q k := funext fun a => Fin.ext (by
    match a with | ⟨0, _⟩ => rfl | ⟨1, _⟩ => rfl | ⟨2, _⟩ => rfl)
  rw [e, expShift_ref]

/-- The reference's weights are the specification's. -/
theorem weights_ref : val_main_v19 (F := Ideal) x0 x1 x3 = weights x0 x1 x3 := by
  funext i
  obtain ⟨b, q, k, rfl⟩ : ∃ (b : Fin 8) (q k : Fin 2048), i = ix3 b q k := ⟨i 0, i 1, i 2, eq_ix3 i⟩
  have e1 : idx_main_v16 (idx_main_v17 (ix3 b q k)) = ix2 b q := funext fun a => Fin.ext (by
    match a with | ⟨0, _⟩ => rfl | ⟨1, _⟩ => rfl)
  have hz : (fun k' => val_main_v7 (F := Ideal) x0 x1 x3 (ix3 b q k'))
      = logit (fun c => x0 (ix3 b c q)) (fun c k' => x1 (ix3 b c k')) (fun k' => x3 (ix3 b q k')) :=
    funext fun k' => logits_ref x0 x1 x3 b q k'
  rw [val_main_v19_apply, val_main_v18_apply, val_main_v17_apply, val_main_v16_apply, val_main_v3_apply, e1,
    expShift_ref, rowSum_ref, hz]
  rfl

/-- The reference's attended values are the specification's. -/
theorem values_ref : val_main_v20 (F := Ideal) x0 x1 x2 x3 = values x0 x1 x2 x3 := by
  funext i
  obtain ⟨b, c, q, rfl⟩ : ∃ (b : Fin 8) (c : Fin 128) (q : Fin 2048), i = ix3 b c q := ⟨i 0, i 1, i 2, eq_ix3 i⟩
  rw [val_main_v20_apply, weights_ref]
  unfold values attended
  refine Finset.sum_congr rfl fun k _ => ?_
  have el : lidx_main_v20 (ix3 b c q) k = ix3 b c k := funext fun a => Fin.ext (by
    match a with | ⟨0, _⟩ => rfl | ⟨1, _⟩ => rfl | ⟨2, _⟩ => rfl)
  have er : ridx_main_v20 (ix3 b c q) k = ix3 b q k := funext fun a => Fin.ext (by
    match a with | ⟨0, _⟩ => rfl | ⟨1, _⟩ => rfl | ⟨2, _⟩ => rfl)
  rw [el, er]
  rfl

end Cert.ReferenceIdeal.RefValue

end
-- ==== Proof.lean ====
/-
  Masked softmax attention: a tiled kernel against the plain array computation, equal on the extended reals.

  Both programs take queries, keys and values [8, 128, 2048] (batch, channel, position) and an integer mask
  [8, 2048, 2048] (batch, query, key) and return the attended values [8, 128, 2048] and the attention weights
  [8, 2048, 2048]. For the row of query `q` of batch `b`,
    logit k  = (∑ c, Q (b, c, q) · K (b, c, k)) · s + log (mask (b, q, k) + ε),
    weight k = exp (logit k − max) / (∑ k', exp (logit k' − max)) · mask (b, q, k),   max the row's maximum from −∞,
    value c  = ∑ k, V (b, c, k) · weight k,
  with `s` and `ε` the same two float words in both programs (Proof/AttnSpec.lean).
  The kernel walks a grid of 8 × 4 points, each on one batch and 512 query positions with all 2048 keys in view, so
  every softmax row is whole inside one point: its block entries are the specification's (Proof/BlockSoftmax.lean,
  Proof/BlockLogits.lean, Proof/BlockStores.lean) and the blocks tile the two result arrays (Proof/KernelArrays.lean).
  The reference computes the same rows over whole arrays (Proof/RefAttention.lean). The two sides differ only in
  how the arrays are cut and in the order in which a row's maximum and sums are taken; sums and maxima over a
  finite index set do not depend on the order, and rounding to a narrower float format is the identity on the
  extended reals, so no entry needs to be finite for the two results to agree.
  The three frames are the generated ones (the reference's is its generated run with the results dropped), and the
  kernel's idealization rewrote nothing.
-/
import proofs.«127525_j88880053224156_1_alg».proof.Defs
import proofs.«127525_j88880053224156_1_alg».proof.Proof.Gen.Kernel
import proofs.«127525_j88880053224156_1_alg».proof.Proof.Gen.Kernel.Skeleton
import proofs.«127525_j88880053224156_1_alg».proof.Proof.Gen.Kernel.Launch
import proofs.«127525_j88880053224156_1_alg».proof.Proof.Gen.Kernel.Points
import proofs.«127525_j88880053224156_1_alg».proof.Proof.Gen.Kernel.Frame
import proofs.«127525_j88880053224156_1_alg».proof.Proof.Gen.KernelIdeal
import proofs.«127525_j88880053224156_1_alg».proof.Proof.Gen.KernelIdeal.Skeleton
import proofs.«127525_j88880053224156_1_alg».proof.Proof.Gen.KernelIdeal.Launch
import proofs.«127525_j88880053224156_1_alg».proof.Proof.Gen.KernelIdeal.Points
import proofs.«127525_j88880053224156_1_alg».proof.Proof.Gen.KernelIdeal.Frame
import proofs.«127525_j88880053224156_1_alg».proof.Proof.Gen.KernelIdeal.Value
import proofs.«127525_j88880053224156_1_alg».proof.Proof.Gen.ReferenceIdeal
import proofs.«127525_j88880053224156_1_alg».proof.Proof.Gen.ReferenceIdeal.Run
import proofs.«127525_j88880053224156_1_alg».proof.Proof.Gen.ReferenceIdeal.Read
import proofs.«127525_j88880053224156_1_alg».proof.Proof.Gen.Pre_finite_inputs
import proofs.«127525_j88880053224156_1_alg».proof.Proof.KernelArrays
import proofs.«127525_j88880053224156_1_alg».proof.Proof.RefAttention
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the four arguments both programs end with the specification's attended values and
    attention weights of those arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v20_eq, Cert.ReferenceIdeal.RefValue.values_ref,
      (hagree c).1, (hagree c).2.1, (hagree c).2.2.1, (hagree c).2.2.2]
  · rw [Cert.ReferenceIdeal.Read.val_main_v19_eq, Cert.ReferenceIdeal.RefValue.weights_ref,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
